-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x96x512 : Shape := ⟨3, ![4, 96, 512]⟩
abbrev S512x1024 : Shape := ⟨2, ![512, 1024]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x96x512 : S_.BroadcastsInDim S4x96x512 (![] : Fin 0 → Fin S4x96x512.rank)
  reducesTo_S4x96x512_S_d0_1_2 : S4x96x512.ReducesTo [0, 1, 2] S_
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S4x512x512 .f32) (main_arg1 : FVec F S4x96x512 .f32) (main_arg2 : FVec F S512x1024 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x96x512 .f32 := Host.absf main_arg1
  let main_cst_0 : FVec F S_ .f32 := constant S_ .f32 0x7F800000#32
  let main_v5 : FVec F S4x96x512 .f32 := broadcastInDim S4x96x512 ![] bcast_S_S4x96x512 main_cst_0
  let main_v6 : IVec S4x96x512 1 := cmpf .olt main_v4 main_v5
  let main_c_1 : IVec S_ 1 := constantI S_ 1 1#1
  let main_v7 : IVec S_ 1 := (fun x v => Host.reduce IntOp.andi x v reducesTo_S4x96x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  main_v13
-- ==== Kernel.lean ====
abbrev S4x512x512 : Shape := ⟨3, ![4, 512, 512]⟩
abbrev S4x96x512 : Shape := ⟨3, ![4, 96, 512]⟩
abbrev S512x1024 : Shape := ⟨2, ![512, 1024]⟩
abbrev S512x512 : Shape := ⟨2, ![512, 512]⟩
abbrev S4x512x96x512 : Shape := ⟨4, ![4, 512, 96, 512]⟩
abbrev S1x64x512 : Shape := ⟨3, ![1, 64, 512]⟩
abbrev S1x96x512 : Shape := ⟨3, ![1, 96, 512]⟩
abbrev S1x64x96x512 : Shape := ⟨4, ![1, 64, 96, 512]⟩
abbrev S64x512 : Shape := ⟨2, ![64, 512]⟩
abbrev S96x512 : Shape := ⟨2, ![96, 512]⟩
abbrev S64x1x512 : Shape := ⟨3, ![64, 1, 512]⟩
abbrev S48x512 : Shape := ⟨2, ![48, 512]⟩
abbrev S1x48x512 : Shape := ⟨3, ![1, 48, 512]⟩
abbrev S64x48x512 : Shape := ⟨3, ![64, 48, 512]⟩
abbrev S1x64x48x512 : Shape := ⟨4, ![1, 64, 48, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x512x512, .f32⟩
  | .hbm, ⟨1, _⟩ => ⟨S4x96x512, .f32⟩
  | .hbm, ⟨2, _⟩ => ⟨S512x1024, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S4x512x96x512, .f32⟩
  | .local _ .vmem, ⟨0, _⟩ => ⟨S1x64x512, .f32⟩
  | .local _ .vmem, ⟨1, _⟩ => ⟨S1x64x512, .f32⟩
  | .local _ .vmem, ⟨2, _⟩ => ⟨S1x96x512, .f32⟩
  | .local _ .vmem, ⟨3, _⟩ => ⟨S1x96x512, .f32⟩
  | .local _ .vmem, ⟨4, _⟩ => ⟨S512x512, .f32⟩
  | .local _ .vmem, ⟨5, _⟩ => ⟨S512x512, .f32⟩
  | .local _ .vmem, ⟨6, _⟩ => ⟨S1x64x96x512, .f32⟩
  | .local _ .vmem, ⟨7, _⟩ => ⟨S1x64x96x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x96x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S512x1024_S512x512_0_0 : S512x1024.Slices ![0, 0] S512x512
  transposes_S512x512_S512x512_1_0 : S512x512.Transposes [1, 0] S512x512
  slices_S512x1024_S512x512_0_512 : S512x1024.Slices ![0, 512] S512x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x96x512_S1x96x512_0_0_0 : ∀ a, (![0, 0, 0] : Fin 3 → Nat) a + S1x96x512.size a ≤ S1x96x512.size a
  h_S1x96x512 : 0 < S1x96x512.numel
  shapeCasts_S1x96x512_S96x512 : S1x96x512.ShapeCasts S96x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  shapeCasts_S64x512_S64x1x512 : S64x512.ShapeCasts S64x1x512
  slices_S96x512_o0_0_S48x512 : S96x512.Slices ![0, 0] S48x512
  shapeCasts_S48x512_S1x48x512 : S48x512.ShapeCasts S1x48x512
  broadcasts_S64x1x512_S64x48x512 : S64x1x512.Broadcasts S64x48x512
  broadcasts_S1x48x512_S64x48x512 : S1x48x512.Broadcasts S64x48x512
  inb_S1x64x96x512_S1x64x48x512_0_0_0_0 : ∀ a, (![0, 0, 0, 0] : Fin 4 → Nat) a + S1x64x48x512.size a ≤ S1x64x96x512.size a
  h_S1x64x48x512 : 0 < S1x64x48x512.numel
  shapeCasts_S1x64x48x512_S64x48x512 : S1x64x48x512.ShapeCasts S64x48x512
  shapeCasts_S64x48x512_S1x64x48x512 : S64x48x512.ShapeCasts S1x64x48x512
  slices_S96x512_o48_0_S48x512 : S96x512.Slices ![48, 0] S48x512
  inb_S1x64x96x512_S1x64x48x512_0_0_48_0 : ∀ a, (![0, 0, 48, 0] : Fin 4 → Nat) a + S1x64x48x512.size a ≤ S1x64x96x512.size a
  dot_S64x512_S512x512_S64x512_1_0_0_1_n_n_wf : DotDims.WF S64x512 S512x512 S64x512 [1] [0] [0] [1] [] []
  dot_S96x512_S512x512_S96x512_1_0_0_1_n_n_wf : DotDims.WF S96x512 S512x512 S96x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S4x512x512.size a
  hwx0_0 : ∀ i : grid0.Coords, EltTy.bits .f32 = 32 ∨ (Rect.block (s := S4x512x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x512.size a ≤ S4x96x512.size a
  hwx0_1 : ∀ i : grid0.Coords, EltTy.bits .f32 = 32 ∨ (Rect.block (s := S4x96x512) S1x96x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x96x512.size a ≤ S4x512x96x512.size a
  hwx0_4 : ∀ i : grid0.Coords, EltTy.bits .f32 = 32 ∨ (Rect.block (s := S4x512x96x512) S1x64x96x512.size (cc0_transform_4 i) (hinb0_4 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S96x512_S512x512_S96x512_1_0_0_1_n_n : DotDims S96x512 S512x512 S96x512 where
  lhsContracting := [1]
  rhsContracting := [0]
  lhsNonContracting := [0]
  rhsNonContracting := [1]
  lhsBatch := []
  rhsBatch := []
  wf := dot_S96x512_S512x512_S96x512_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x96x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64x96x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S4x96x512 : Shape := ⟨3, ![4, 96, 512]⟩
abbrev S512x1024 : Shape := ⟨2, ![512, 1024]⟩
abbrev S512x512 : Shape := ⟨2, ![512, 512]⟩
abbrev S4x512x1x512 : Shape := ⟨4, ![4, 512, 1, 512]⟩
abbrev S4x1x96x512 : Shape := ⟨4, ![4, 1, 96, 512]⟩
abbrev S4x512x96x512 : Shape := ⟨4, ![4, 512, 96, 512]⟩

abbrev nBuf : Space → Nat
  | .hbm => 12
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x96x512, .f32⟩
  | .hbm, ⟨2, _⟩ => ⟨S512x1024, .f32⟩
  | .hbm, ⟨3, _⟩ => ⟨S512x512, .f32⟩
  | .hbm, ⟨4, _⟩ => ⟨S512x512, .f32⟩
  | .hbm, ⟨5, _⟩ => ⟨S4x512x512, .f32⟩
  | .hbm, ⟨6, _⟩ => ⟨S4x96x512, .f32⟩
  | .hbm, ⟨7, _⟩ => ⟨S4x512x1x512, .f32⟩
  | .hbm, ⟨8, _⟩ => ⟨S4x1x96x512, .f32⟩
  | .hbm, ⟨9, _⟩ => ⟨S4x512x96x512, .f32⟩
  | .hbm, ⟨10, _⟩ => ⟨S4x512x96x512, .f32⟩
  | .hbm, ⟨11, _⟩ => ⟨S4x512x96x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  bcast_S4x512x512_S4x512x1x512_0_1_3 : S4x512x512.BroadcastsInDim S4x512x1x512 (![0, 1, 3] : Fin 3 → Fin S4x512x1x512.rank)
  bcast_S4x96x512_S4x1x96x512_0_2_3 : S4x96x512.BroadcastsInDim S4x1x96x512 (![0, 2, 3] : Fin 3 → Fin S4x1x96x512.rank)
  bcast_S4x512x1x512_S4x512x96x512_0_1_2_3 : S4x512x1x512.BroadcastsInDim S4x512x96x512 (![0, 1, 2, 3] : Fin 4 → Fin S4x512x96x512.rank)
  bcast_S4x1x96x512_S4x512x96x512_0_1_2_3 : S4x1x96x512.BroadcastsInDim S4x512x96x512 (![0, 1, 2, 3] : Fin 4 → Fin S4x512x96x512.rank)
  dot_S4x512x512_S512x512_S4x512x512_2_1_01_0_n_n_wf : DotDims.WF S4x512x512 S512x512 S4x512x512 [2] [1] [0, 1] [0] [] []
  dot_S4x96x512_S512x512_S4x96x512_2_1_01_0_n_n_wf : DotDims.WF S4x96x512 S512x512 S4x96x512 [2] [1] [0, 1] [0] [] []

variable [Facts₀]

def dot_S4x512x512_S512x512_S4x512x512_2_1_01_0_n_n : DotDims S4x512x512 S512x512 S4x512x512 where
  lhsContracting := [2]
  rhsContracting := [1]
  lhsNonContracting := [0, 1]
  rhsNonContracting := [0]
  lhsBatch := []
  rhsBatch := []
  wf := dot_S4x512x512_S512x512_S4x512x512_2_1_01_0_n_n_wf
def dot_S4x96x512_S512x512_S4x96x512_2_1_01_0_n_n : DotDims S4x96x512 S512x512 S4x96x512 where
  lhsContracting := [2]
  rhsContracting := [1]
  lhsNonContracting := [0, 1]
  rhsNonContracting := [0]
  lhsBatch := []
  rhsBatch := []
  wf := dot_S4x96x512_S512x512_S4x96x512_2_1_01_0_n_n_wf

class Facts : Prop extends Facts₀ where

variable [Facts]
-- ==== Proof.JointSpec.lean ====
/-
  The joint head as ONE function of its three argument arrays, over the extended reals.

  With `enc : [4, 512, 512]` (batch, time, feature), `dec : [4, 96, 512]` (batch, label, feature) and the fused weight
  `w : [512, 1024]` (vocabulary row, then the 512 encoder columns followed by the 512 decoder columns), the entry
  `(b, t, u, v)` of the result is

      ∑ k, enc (b, t, k) · w (v, k)  +  ∑ k, dec (b, u, k) · w (v, 512 + k):

  row `t` of the encoder projected on weight row `v`'s first half, plus row `u` of the decoder projected on its second half.
  Both programs compute exactly this: neither side regroups a product over a sum, so no finiteness is needed.
-/
import Idealize.ShloMosaic.PureOps.Ideal
import Idealize.ShloMosaic.Lib.ValueIdx

noncomputable section

namespace Cert.Joint

open Idealize.ShloMosaic Idealize.ShloMosaic.ValueIdx

/-- Entry `(v, k)` of the weight's encoder half: column `k` of row `v`. -/
abbrev encCol (v k : Fin 512) : (⟨2, ![512, 1024]⟩ : Shape).Idx :=
  ix2 v (⟨k.val, by have := k.isLt; omega⟩ : Fin 1024)

/-- Entry `(v, k)` of the weight's decoder half: column `512 + k` of row `v`. -/
abbrev decCol (v k : Fin 512) : (⟨2, ![512, 1024]⟩ : Shape).Idx :=
  ix2 v (⟨512 + k.val, by have := k.isLt; omega⟩ : Fin 1024)

/-- The joint head at explicit coordinates: the two projections' sums added. -/
def jointAt (enc : FVec Ideal ⟨3, ![4, 512, 512]⟩ .f32) (dec : FVec Ideal ⟨3, ![4, 96, 512]⟩ .f32)
    (w : FVec Ideal ⟨2, ![512, 1024]⟩ .f32) (b : Fin 4) (t : Fin 512) (u : Fin 96) (v : Fin 512) : EReal :=
  (∑ k : Fin 512, enc (ix3 b t k) * w (encCol v k)) + ∑ k : Fin 512, dec (ix3 b u k) * w (decCol v k)

/-- The whole result array. -/
def joint (enc : FVec Ideal ⟨3, ![4, 512, 512]⟩ .f32) (dec : FVec Ideal ⟨3, ![4, 96, 512]⟩ .f32)
    (w : FVec Ideal ⟨2, ![512, 1024]⟩ .f32) : FVec Ideal ⟨4, ![4, 512, 96, 512]⟩ .f32 :=
  fun i => jointAt enc dec w (i 0) (i 1) (i 2) (i 3)

end Cert.Joint

end
-- ==== Proof.RefJoint.lean ====
/-
  The reference computes the joint head.

  The reference slices the weight into its two column halves, contracts the encoder with the first half and the
  decoder with the second over the feature axis, inserts a unit label axis in the first product and a unit time axis in
  the second, repeats each along the inserted axis and adds. Read at an index `(b, t, u, v)`, the two repeated products
  are the two sums of the specification, and the slices are the weight at columns `k` and `512 + k`.
-/
import proofs.«121706_j87917980549125_2_alg».proof.Proof.Gen.ReferenceIdeal.Read
import proofs.«121706_j87917980549125_2_alg».proof.Proof.JointSpec

noncomputable section

namespace Cert.ReferenceIdeal.RefValue

open Cert.ReferenceIdeal Cert.ReferenceIdeal.Read Idealize.ShloMosaic Idealize.ShloMosaic.ValueIdx Cert.Joint

/-- The reference's last stage, as a function of the three arguments, is the joint head. -/
theorem ref_eq_joint (x0 : (⟨S4x512x512, .f32⟩ : BufTy).Contents (Elt Ideal)) (x1 : (⟨S4x96x512, .f32⟩ : BufTy).Contents (Elt Ideal))
    (x2 : (⟨S512x1024, .f32⟩ : BufTy).Contents (Elt Ideal)) :
    val_main_v8 (F := Ideal) x0 x1 x2 = joint x0 x1 x2 := by
  funext i
  rw [val_main_v8_apply, val_main_v6_apply, val_main_v4_apply, val_main_v2_apply, val_main_v7_apply, val_main_v5_apply,
    val_main_v3_apply]
  simp only [val_main_v0_apply, val_main_v1_apply]
  show (∑ k : Fin 512, _) + (∑ k : Fin 512, _) = jointAt x0 x1 x2 (i 0) (i 1) (i 2) (i 3)
  unfold jointAt
  congr 1
  · refine Finset.sum_congr rfl fun k _ => ?_
    congr 1
    · refine congrArg x0 (funext fun a => Fin.ext ?_)
      match a with
      | ⟨0, _⟩ => rfl
      | ⟨1, _⟩ => rfl
      | ⟨2, _⟩ => rfl
    · refine congrArg x2 (funext fun a => Fin.ext ?_)
      match a with
      | ⟨0, _⟩ => rfl
      | ⟨1, _⟩ => rfl
  · refine Finset.sum_congr rfl fun k _ => ?_
    congr 1
    · refine congrArg x1 (funext fun a => Fin.ext ?_)
      match a with
      | ⟨0, _⟩ => rfl
      | ⟨1, _⟩ => rfl
      | ⟨2, _⟩ => rfl
    · refine congrArg x2 (funext fun a => Fin.ext ?_)
      match a with
      | ⟨0, _⟩ => rfl
      | ⟨1, _⟩ => rfl

end Cert.ReferenceIdeal.RefValue

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.BodyJoint.lean ====
/-
  What one grid point leaves in the output block, entry by entry.

  The body projects its 64 encoder rows and the 96 decoder rows of the point's batch on the two weight matrices it is
  handed (each already laid out feature-by-vocabulary), with the matrix unit accumulating into zero, and stores the
  broadcast sum in two halves of the label axis. The rounding to sixteen bits on the way into the matrix unit is the
  identity on the extended reals, so entry `(0, r, u, v)` of the block is

      ∑ k, enc (0, r, k) · wenc (k, v)  +  ∑ k, dec (0, u, k) · wdec (k, v).
-/
import proofs.«121706_j87917980549125_2_alg».proof.Proof.Gen.KernelIdeal.Value
import proofs.«121706_j87917980549125_2_alg».proof.Proof.LibRowColDot
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The two matrix products -/

/-- In the encoder product the left operand's row is the output's row … -/
theorem encDot_row (j : S64x512.Idx) (q : dot_S64x512_S512x512_S64x512_1_0_0_1_n_n.contr.Idx) :
    (dot_S64x512_S512x512_S64x512_1_0_0_1_n_n.lhsIdx j q 0).val = (j 0).val := by
  unfold DotDims.lhsIdx
  rw [dif_neg (show ¬(0 : Fin S64x512.rank) ∈ dot_S64x512_S512x512_S64x512_1_0_0_1_n_n.lhsBatch by decide),
    dif_pos (show (0 : Fin S64x512.rank) ∈ dot_S64x512_S512x512_S64x512_1_0_0_1_n_n.lhsNonContracting by decide)]
  rfl

/-- … and the right operand's column is the output's column. -/
theorem encDot_col (j : S64x512.Idx) (q : dot_S64x512_S512x512_S64x512_1_0_0_1_n_n.contr.Idx) :
    (dot_S64x512_S512x512_S64x512_1_0_0_1_n_n.rhsIdx j q 1).val = (j 1).val := by
  unfold DotDims.rhsIdx
  rw [dif_neg (show ¬(1 : Fin S512x512.rank) ∈ dot_S64x512_S512x512_S64x512_1_0_0_1_n_n.rhsBatch by decide),
    dif_pos (show (1 : Fin S512x512.rank) ∈ dot_S64x512_S512x512_S64x512_1_0_0_1_n_n.rhsNonContracting by decide)]
  rfl

/-- The same two facts for the decoder product. -/
theorem decDot_row (j : S96x512.Idx) (q : dot_S96x512_S512x512_S96x512_1_0_0_1_n_n.contr.Idx) :
    (dot_S96x512_S512x512_S96x512_1_0_0_1_n_n.lhsIdx j q 0).val = (j 0).val := by
  unfold DotDims.lhsIdx
  rw [dif_neg (show ¬(0 : Fin S96x512.rank) ∈ dot_S96x512_S512x512_S96x512_1_0_0_1_n_n.lhsBatch by decide),
    dif_pos (show (0 : Fin S96x512.rank) ∈ dot_S96x512_S512x512_S96x512_1_0_0_1_n_n.lhsNonContracting by decide)]
  rfl

theorem decDot_col (j : S96x512.Idx) (q : dot_S96x512_S512x512_S96x512_1_0_0_1_n_n.contr.Idx) :
    (dot_S96x512_S512x512_S96x512_1_0_0_1_n_n.rhsIdx j q 1).val = (j 1).val := by
  unfold DotDims.rhsIdx
  rw [dif_neg (show ¬(1 : Fin S512x512.rank) ∈ dot_S96x512_S512x512_S96x512_1_0_0_1_n_n.rhsBatch by decide),
    dif_pos (show (1 : Fin S512x512.rank) ∈ dot_S96x512_S512x512_S96x512_1_0_0_1_n_n.rhsNonContracting by decide)]
  rfl

/-- The encoder projection as the matrix unit's product of the two loaded blocks. -/
theorem encProj_eq (P0 : Vec Ideal S1x64x512 .f32) (P1 : Vec Ideal S512x512 .f32) :
    k0_pay1 P0 P1 = matmul dot_S64x512_S512x512_S64x512_1_0_0_1_n_n none
      (truncf .bf16 (shapeCast S64x512 P0 shapeCasts_S1x64x512_S64x512) bitsLt_bf16_f32)
      (truncf .bf16 (shapeCast S512x512 P1 shapeCasts_S512x512_S512x512) bitsLt_bf16_f32)
      (constant S64x512 .f32 0x00000000#32) := rfl

/-- The decoder projection likewise. -/
theorem decProj_eq (P2 : Vec Ideal S1x96x512 .f32) (P3 : Vec Ideal S512x512 .f32) :
    k0_pay2 P2 P3 = matmul dot_S96x512_S512x512_S96x512_1_0_0_1_n_n none
      (truncf .bf16 (shapeCast S96x512 P2 shapeCasts_S1x96x512_S96x512) bitsLt_bf16_f32)
      (truncf .bf16 (shapeCast S512x512 P3 shapeCasts_S512x512_S512x512) bitsLt_bf16_f32)
      (constant S96x512 .f32 0x00000000#32) := rfl

/-- Row `r`, column `v` of the encoder projection: row `r` of the encoder block against column `v` of the weight block. -/
theorem encProj_apply (P0 : Vec Ideal S1x64x512 .f32) (P1 : Vec Ideal S512x512 .f32) (r : Fin 64) (v : Fin 512) :
    k0_pay1 P0 P1 (ix2 r v) = ∑ k : Fin 512, P0 (ix3 (0 : Fin 1) r k) * P1 (ix2 k v) := by
  rw [encProj_eq]
  refine (Cert.RowColDot.matmul_rowcol dot_S64x512_S512x512_S64x512_1_0_0_1_n_n rfl rfl rfl rfl encDot_row encDot_col none
    _ _ (ix2 r v)).trans ?_
  refine Finset.sum_congr rfl fun k _ => ?_
  congr 1
  · show shapeCast S64x512 P0 shapeCasts_S1x64x512_S64x512 (ix2 r k) = _
    exact shapeCast_apply P0 _ (ix2 r k) (ix3 (0 : Fin 1) r k) (by
      rw [Shape.rowMajor_val_three, Shape.rowMajor_val_two]
      show (0 * 64 + r.val) * 512 + k.val = r.val * 512 + k.val
      omega)
  · show shapeCast S512x512 P1 shapeCasts_S512x512_S512x512 (ix2 k v) = _
    rw [shapeCast_self]

/-- Row `u`, column `v` of the decoder projection. -/
theorem decProj_apply (P2 : Vec Ideal S1x96x512 .f32) (P3 : Vec Ideal S512x512 .f32) (u : Fin 96) (v : Fin 512) :
    k0_pay2 P2 P3 (ix2 u v) = ∑ k : Fin 512, P2 (ix3 (0 : Fin 1) u k) * P3 (ix2 k v) := by
  rw [decProj_eq]
  refine (Cert.RowColDot.matmul_rowcol dot_S96x512_S512x512_S96x512_1_0_0_1_n_n rfl rfl rfl rfl decDot_row decDot_col none
    _ _ (ix2 u v)).trans ?_
  refine Finset.sum_congr rfl fun k _ => ?_
  congr 1
  · show shapeCast S96x512 P2 shapeCasts_S1x96x512_S96x512 (ix2 u k) = _
    exact shapeCast_apply P2 _ (ix2 u k) (ix3 (0 : Fin 1) u k) (by
      rw [Shape.rowMajor_val_three, Shape.rowMajor_val_two]
      show (0 * 96 + u.val) * 512 + k.val = u.val * 512 + k.val
      omega)
  · show shapeCast S512x512 P3 shapeCasts_S512x512_S512x512 (ix2 k v) = _
    rw [shapeCast_self]

/-! ## The block -/

theorem zero3 : (![0, 0, 0] : Fin 3 → Nat) = fun _ => 0 := funext fun a => by fin_cases a <;> rfl
theorem zero2 : (![0, 0] : Fin 2 → Nat) = fun _ => 0 := funext fun a => by fin_cases a <;> rfl

/-- Entry `(0, r, u, v)` of what the body leaves in the output block, from the four input blocks: the two stores
    cover the label axis' two halves with the same broadcast sum, so every entry is the encoder projection at `(r, v)` plus the
    decoder projection at `(u, v)`. -/
theorem block_apply (x0 : Vec Ideal S1x64x512 .f32) (x1 : Vec Ideal S1x96x512 .f32) (x2 x3 : Vec Ideal S512x512 .f32)
    (r : Fin 64) (u : Fin 96) (v : Fin 512) :
    out0_4 x0 x1 x2 x3 (ix4 (0 : Fin 1) r u v)
      = (∑ k : Fin 512, x0 (ix3 (0 : Fin 1) r k) * x2 (ix2 k v)) + ∑ k : Fin 512, x1 (ix3 (0 : Fin 1) u k) * x3 (ix2 k v) := by
  unfold out0_4
  simp only [View.ld_unit_zero (S := S1x64x512) zero3, View.ld_unit_zero (S := S1x96x512) zero3,
    View.ld_unit_zero (S := S512x512) zero2]
  rw [Cert.KernelIdeal.Value.canon4_eq]
  show (k0_pay1 x0 x2 (Cert.KernelIdeal.Value.ix4_0 (ix4 (0 : Fin 1) r u v)))
    + (k0_pay2 x1 x3 (Cert.KernelIdeal.Value.ix4_1 (ix4 (0 : Fin 1) r u v))) = _
  have e0 : Cert.KernelIdeal.Value.ix4_0 (ix4 (0 : Fin 1) r u v) = ix2 r v :=
    funext fun a => Fin.ext (by match a with | ⟨0, _⟩ => rfl | ⟨1, _⟩ => rfl)
  have e1 : Cert.KernelIdeal.Value.ix4_1 (ix4 (0 : Fin 1) r u v) = ix2 u v :=
    funext fun a => Fin.ext (by match a with | ⟨0, _⟩ => rfl | ⟨1, _⟩ => rfl)
  rw [e0, e1, encProj_apply, decProj_apply]

end Cert.KernelIdeal.Body

end
-- ==== Proof.HostWeights.lean ====
/-
  The two weight matrices the region is handed.

  Before the region the host slices the fused weight `[512, 1024]` into its two column halves and transposes each, so
  that the body contracts feature against feature: the encoder matrix at `(k, v)` is the weight at row `v`, column `k`, and the
  decoder matrix at `(k, v)` is the weight at row `v`, column `512 + k`.
-/
import proofs.«121706_j87917980549125_2_alg».proof.Proof.Gen.KernelIdeal.Frame
import proofs.«121706_j87917980549125_2_alg».proof.Proof.JointSpec
import Idealize.ShloMosaic.Lib.Pipeline.Value
import Idealize.ShloMosaic.Lib.StableHlo.Run
import Idealize.ShloMosaic.Lib.ValueIdx

noncomputable section

namespace Cert.KernelIdeal.Host

open Cert.KernelIdeal Cert.KernelIdeal.Gen Idealize.ShloMosaic Idealize.ShloMosaic.TcCoe Idealize.SL.Sem
open Idealize.ShloMosaic.ValueIdx Cert.Joint Idealize.ShloMosaic.StableHlo

variable (m : (ℓ : Loc nD τ sig) → Buf (Elt Ideal) ℓ)

/-- The encoder matrix as the region finds it: the transposed first half of the weight. -/
theorem encMat_eq (c : Dev nD) :
    (V m c main_v1 : S512x512.Idx → EReal)
      = transpose S512x512 [1, 0] (extractStridedSlice S512x512 ![0, 0] (m ((c : Thread nD τ).loc main_arg2)) slices_S512x1024_S512x512_0_0)
          transposes_S512x512_S512x512_1_0 := by
  dsimp only [Gen.V, Gen.hostOps0]
  after_results

/-- The decoder matrix as the region finds it: the transposed second half of the weight. -/
theorem decMat_eq (c : Dev nD) :
    (V m c main_v3 : S512x512.Idx → EReal)
      = transpose S512x512 [1, 0] (extractStridedSlice S512x512 ![0, 512] (m ((c : Thread nD τ).loc main_arg2)) slices_S512x1024_S512x512_0_512)
          transposes_S512x512_S512x512_1_0 := by
  dsimp only [Gen.V, Gen.hostOps0]
  after_results

/-- Entry `(k, v)` of the encoder matrix is the weight at row `v`, column `k`. -/
theorem encMat_apply (c : Dev nD) (k v : Fin 512) :
    (V m c main_v1 : S512x512.Idx → EReal) (ix2 k v) = (m ((c : Thread nD τ).loc main_arg2) : S512x1024.Idx → EReal) (encCol v k) := by
  rw [encMat_eq]
  refine (transpose_apply [1, 0] _ transposes_S512x512_S512x512_1_0 (ix2 k v) (ix2 v k) (fun b => by
    match b with
    | ⟨0, _⟩ => rfl
    | ⟨1, _⟩ => rfl)).trans ?_
  exact extractStridedSlice_apply ![0, 0] _ slices_S512x1024_S512x512_0_0 (ix2 v k) (encCol v k) (fun a => by
    match a with
    | ⟨0, _⟩ => show v.val = 0 + v.val; omega
    | ⟨1, _⟩ => show k.val = 0 + k.val; omega)

/-- Entry `(k, v)` of the decoder matrix is the weight at row `v`, column `512 + k`. -/
theorem decMat_apply (c : Dev nD) (k v : Fin 512) :
    (V m c main_v3 : S512x512.Idx → EReal) (ix2 k v) = (m ((c : Thread nD τ).loc main_arg2) : S512x1024.Idx → EReal) (decCol v k) := by
  rw [decMat_eq]
  refine (transpose_apply [1, 0] _ transposes_S512x512_S512x512_1_0 (ix2 k v) (ix2 v k) (fun b => by
    match b with
    | ⟨0, _⟩ => rfl
    | ⟨1, _⟩ => rfl)).trans ?_
  exact extractStridedSlice_apply ![0, 512] _ slices_S512x1024_S512x512_0_512 (ix2 v k) (decCol v k) (fun a => by
    match a with
    | ⟨0, _⟩ => show v.val = 0 + v.val; omega
    | ⟨1, _⟩ => show 512 + k.val = 512 + k.val; omega)

end Cert.KernelIdeal.Host

end
-- ==== Proof.BlocksJoint.lean ====
/-
  From the blocks to the whole result array.

  The grid has a point per batch `b` and per tile `ti` of 64 time steps. At that point the body sees rows
  `64·ti … 64·ti + 63` of batch `b` of the encoder, all 96 rows of batch `b` of the decoder, and the two weight matrices
  whole; it writes back block `(b, ti, 0, 0)` of the result, of extent `[1, 64, 96, 512]`. So entry `(0, r, u, v)` of the
  block is entry `(b, 64·ti + r, u, v)` of the joint head of the argument arrays, and the 32 blocks tile the result.
-/
import proofs.«121706_j87917980549125_2_alg».proof.Proof.Gen.KernelIdeal.Value
import proofs.«121706_j87917980549125_2_alg».proof.Proof.JointSpec
import proofs.«121706_j87917980549125_2_alg».proof.Proof.BodyJoint
import proofs.«121706_j87917980549125_2_alg».proof.Proof.HostWeights
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Joint

variable (m : (ℓ : Loc nD τ sig) → Buf (Elt Ideal) ℓ) (ρ : Dev nD → PrngReg)

/-- How the five windows' block indices move over the grid: the encoder's follows the output's batch and tile, the decoder's
    its batch, the two weight matrices stay at their one block, and the output's last two block indices are zero. -/
theorem idx_facts : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 4) < 4
    ∧ win0_4.index t (1 : Fin 4) < 8
    ∧ win0_4.index t (2 : Fin 4) = 0
    ∧ win0_4.index t (3 : Fin 4) = 0 :=
  (by decide +kernel : ∀ t : Fin grid0.N, _)

/-- Every (batch, tile) pair is some point's output block. -/
theorem idx_onto : ∀ (q0 : Fin 4) (q1 : Fin 8), ∃ t : Fin cfg0.N, win0_4.index t = ![q0.val, q1.val, 0, 0] :=
  (by decide +kernel : ∀ (q0 : Fin 4) (q1 : Fin 8), ∃ t : Fin grid0.N, win0_4.index t = ![q0.val, q1.val, 0, 0])

/-! ## The input blocks as entries of the arrays -/

/-- Row `r` of the encoder block at point `t` is row `64·ti + r` of batch `b` of the encoder. -/
theorem encBlk_apply (c : Dev nD) (t : Fin cfg0.N) (r : Fin 64) (k : Fin 512) (b : Fin 4) (row : Fin 512)
    (hb : b.val = win0_4.index t (0 : Fin 4)) (hrow : row.val = win0_4.index t (1 : Fin 4) * 64 + r.val) :
    (iblk m c 0 t : Vec Ideal S1x64x512 .f32) (ix3 (0 : Fin 1) r k)
      = (m ((c : Thread nD τ).loc main_arg0) : S4x512x512.Idx → EReal) (ix3 b row k) := by
  obtain ⟨e0, e1, e2, -⟩ := idx_facts t
  unfold iblk
  rw [View.read_apply]
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 64 + 1 * r.val = row.val; omega
  | ⟨2, _⟩ => show win0_0.index t (2 : Fin 3) * 512 + 1 * k.val = k.val; omega

/-- Row `u` of the decoder block at point `t` is row `u` of batch `b` of the decoder. -/
theorem decBlk_apply (c : Dev nD) (t : Fin cfg0.N) (u : Fin 96) (k : Fin 512) (b : Fin 4)
    (hb : b.val = win0_4.index t (0 : Fin 4)) :
    (iblk m c 1 t : Vec Ideal S1x96x512 .f32) (ix3 (0 : Fin 1) u k)
      = (m ((c : Thread nD τ).loc main_arg1) : S4x96x512.Idx → EReal) (ix3 b u k) := by
  obtain ⟨-, -, -, e3, e4, e5, -⟩ := idx_facts t
  unfold iblk
  rw [View.read_apply]
  show V m c main_arg1 (((cfg0.win 1).blk t).view.emb (ix3 (0 : Fin 1) u k)) = _
  rw [V_main_arg1]
  refine congrArg _ (funext fun a => Fin.ext ?_)
  match a with
  | ⟨0, _⟩ => show win0_1.index t (0 : Fin 3) * 1 + 1 * 0 = b.val; omega
  | ⟨1, _⟩ => show win0_1.index t (1 : Fin 3) * 96 + 1 * u.val = u.val; omega
  | ⟨2, _⟩ => show win0_1.index t (2 : Fin 3) * 512 + 1 * k.val = k.val; omega

/-- The encoder weight block at every point is the whole encoder matrix: entry `(k, v)` is the weight at `(v, k)`. -/
theorem encMatBlk_apply (c : Dev nD) (t : Fin cfg0.N) (k v : Fin 512) :
    (iblk m c 2 t : Vec Ideal S512x512 .f32) (ix2 k v)
      = (m ((c : Thread nD τ).loc main_arg2) : S512x1024.Idx → EReal) (encCol v k) := by
  obtain ⟨-, -, -, -, -, -, e6, e7, -⟩ := idx_facts t
  unfold iblk
  rw [View.read_apply]
  show V m c main_v1 (((cfg0.win 2).blk t).view.emb (ix2 k v)) = _
  refine Eq.trans (congrArg _ (funext fun a => Fin.ext ?_)) (Host.encMat_apply m c k v)
  match a with
  | ⟨0, _⟩ => show win0_2.index t (0 : Fin 2) * 512 + 1 * k.val = k.val; omega
  | ⟨1, _⟩ => show win0_2.index t (1 : Fin 2) * 512 + 1 * v.val = v.val; omega

/-- The decoder weight block likewise: entry `(k, v)` is the weight at `(v, 512 + k)`. -/
theorem decMatBlk_apply (c : Dev nD) (t : Fin cfg0.N) (k v : Fin 512) :
    (iblk m c 3 t : Vec Ideal S512x512 .f32) (ix2 k v)
      = (m ((c : Thread nD τ).loc main_arg2) : S512x1024.Idx → EReal) (decCol v k) := by
  obtain ⟨-, -, -, -, -, -, -, -, e8, e9, -⟩ := idx_facts t
  unfold iblk
  rw [View.read_apply]
  show V m c main_v3 (((cfg0.win 3).blk t).view.emb (ix2 k v)) = _
  refine Eq.trans (congrArg _ (funext fun a => Fin.ext ?_)) (Host.decMat_apply m c k v)
  match a with
  | ⟨0, _⟩ => show win0_3.index t (0 : Fin 2) * 512 + 1 * k.val = k.val; omega
  | ⟨1, _⟩ => show win0_3.index t (1 : Fin 2) * 512 + 1 * v.val = v.val; omega

/-! ## What a point writes back -/

/-- The result as one function of the launch contents of the three arguments. -/
abbrev result (c : Dev nD) : S4x512x96x512.Idx → EReal :=
  joint (m ((c : Thread nD τ).loc main_arg0)) (m ((c : Thread nD τ).loc main_arg1)) (m ((c : Thread nD τ).loc main_arg2))

/-- Entry `y` of the block the body leaves at point `t` is the joint head at the array index under `y`. -/
theorem block_eq (c : Dev nD) (t : Fin cfg0.N) (y : S1x64x96x512.Idx) :
    out0_4 (iblk m c 0 t) (iblk m c 1 t) (iblk m c 2 t) (iblk m c 3 t) y
      = result m c (((cfg0.win 4).blk t).view.emb y) := by
  obtain ⟨r, u, v, rfl⟩ : ∃ (r : Fin 64) (u : Fin 96) (v : Fin 512), y = ix4 (0 : Fin 1) r u v :=
    ⟨y 1, y 2, y 3, funext fun a => by
      match a with
      | ⟨0, _⟩ => exact Fin.ext (by have h : (y 0).val < 1 := (y 0).isLt; show (y 0).val = 0; omega)
      | ⟨1, _⟩ => rfl
      | ⟨2, _⟩ => rfl
      | ⟨3, _⟩ => rfl⟩
  obtain ⟨-, -, -, -, -, -, -, -, -, -, hb, hti, e12, e13⟩ := idx_facts t
  refine (Body.block_apply (iblk m c 0 t) (iblk m c 1 t) (iblk m c 2 t) (iblk m c 3 t) r u v).trans ?_
  have hi : ((cfg0.win 4).blk t).view.emb (ix4 (0 : Fin 1) r u v)
      = ix4 (⟨win0_4.index t (0 : Fin 4), hb⟩ : Fin 4)
          (⟨win0_4.index t (1 : Fin 4) * 64 + r.val, by have := r.isLt; omega⟩ : Fin 512) u v :=
    funext fun a => Fin.ext (by
      match a with
      | ⟨0, _⟩ => show win0_4.index t (0 : Fin 4) * 1 + 1 * 0 = win0_4.index t (0 : Fin 4); omega
      | ⟨1, _⟩ => show win0_4.index t (1 : Fin 4) * 64 + 1 * r.val = win0_4.index t (1 : Fin 4) * 64 + r.val; omega
      | ⟨2, _⟩ => show win0_4.index t (2 : Fin 4) * 96 + 1 * u.val = u.val; omega
      | ⟨3, _⟩ => show win0_4.index t (3 : Fin 4) * 512 + 1 * v.val = v.val; omega)
  rw [hi]
  show _ = jointAt _ _ _ (⟨win0_4.index t (0 : Fin 4), hb⟩ : Fin 4)
    (⟨win0_4.index t (1 : Fin 4) * 64 + r.val, by have := r.isLt; omega⟩ : Fin 512) u v
  unfold jointAt
  congr 1
  · refine Finset.sum_congr rfl fun k _ => ?_
    rw [encBlk_apply m c t r k ⟨win0_4.index t (0 : Fin 4), hb⟩
      ⟨win0_4.index t (1 : Fin 4) * 64 + r.val, by have := r.isLt; omega⟩ rfl rfl, encMatBlk_apply m c t k v]
  · refine Finset.sum_congr rfl fun k _ => ?_
    rw [decBlk_apply m c t u k ⟨win0_4.index t (0 : Fin 4), hb⟩ rfl, decMatBlk_apply m c t k v]

/-- What point `t` writes back is block `t` of the joint head of the argument arrays. -/
theorem flushed_eq (c : Dev nD) (t : Fin cfg0.N) :
    (dats m 0 c).flushed 4 t = ((cfg0.win 4).blk t).view.read (Elt Ideal) (result m c) := by
  rw [Cert.KernelIdeal.Value.flushed4]
  funext y
  exact block_eq m c t y

/-! ## The blocks tile the result -/

/-- An index of the result is in point `t`'s block iff each coordinate is in the block's range on its axis. -/
theorem mem_blk (t : Fin cfg0.N) (i : S4x512x96x512.Idx) :
    i ∈ ((cfg0.win 4).blk t).view.set ↔ ∀ a : Fin 4, win0_4.index t a * S1x64x96x512.size a ≤ (i a).val
      ∧ (i a).val < win0_4.index t a * S1x64x96x512.size a + S1x64x96x512.size a := by
  show i ∈ ((View.whole main_v4).slice (win0_4.rect t)).set ↔ _
  rw [View.set_slice_whole, Rect.mem_set_unit]
  exact Iff.rfl

/-- Every index of the result is in the block of the point of its batch and of its time step's tile. -/
theorem cover (i : S4x512x96x512.Idx) :
    ∃ t : Fin cfg0.N, (cfg0.win 4).flush t = true ∧ i ∈ ((cfg0.win 4).blk t).view.set := by
  have h0 : (i 0).val < 4 := (i 0).isLt
  have h1 : (i 1).val < 512 := (i 1).isLt
  have h2 : (i 2).val < 96 := (i 2).isLt
  have h3 : (i 3).val < 512 := (i 3).isLt
  obtain ⟨t, ht⟩ := idx_onto ⟨(i 0).val, h0⟩ ⟨(i 1).val / 64, by omega⟩
  have q0 : win0_4.index t (0 : Fin 4) = (i 0).val := congrFun ht 0
  have q1 : win0_4.index t (1 : Fin 4) = (i 1).val / 64 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 96 ≤ (i 2).val ∧ (i 2).val < win0_4.index t (2 : Fin 4) * 96 + 96; omega
  | ⟨3, _⟩ => show win0_4.index t (3 : Fin 4) * 512 ≤ (i 3).val ∧ (i 3).val < win0_4.index t (3 : Fin 4) * 512 + 512; omega

/-- So after the run the result array is the joint head of the argument arrays. -/
theorem final (c : Dev nD) : (dats m 0 c).arrAt 4 cfg0.N = result m c :=
  (dats m 0 c).arrAt_eq_of_cover 4 (result m c) (fun t _ => flushed_eq m c t) cover

/-- The run, read: the result array at the joint head of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Blocks

end
-- ==== Proof.lean ====
/-
  The RNN-T joint head: `out[b, t, u, v] = enc[b, t] · W[v, :512] + dec[b, u] · W[v, 512:]`, a Pallas kernel over a
  (batch, time-tile) grid against the jnp reference, equal over the extended reals.

  Both programs compute, at every index `(b, t, u, v)`,

      ∑ k, enc (b, t, k) · W (v, k)  +  ∑ k, dec (b, u, k) · W (v, 512 + k)

  (Proof/JointSpec.lean). The kernel transposes the two column halves of `W` on the host (Proof/HostWeights.lean); at the
  grid point of batch `b` and tile `ti` its body multiplies 64 encoder rows and the 96 decoder rows by the two matrices on the
  matrix unit — the rounding to sixteen bits on the way in is the identity on the extended reals — and stores the
  broadcast sum in two halves of the label axis (Proof/BodyJoint.lean); the 32 blocks it writes back tile the result
  (Proof/BlocksJoint.lean). The reference contracts the same halves with `dot_general`, inserts the unit axes, repeats and adds
  (Proof/RefJoint.lean). Neither side moves a factor across a sum, so the equality holds at the infinities too and the
  finiteness of the inputs is not used. The idealization rewrote no operation, so `preserves` is `True`.
-/
import proofs.«121706_j87917980549125_2_alg».proof.Defs
import proofs.«121706_j87917980549125_2_alg».proof.Proof.Gen.Kernel
import proofs.«121706_j87917980549125_2_alg».proof.Proof.Gen.Kernel.Skeleton
import proofs.«121706_j87917980549125_2_alg».proof.Proof.Gen.Kernel.Launch
import proofs.«121706_j87917980549125_2_alg».proof.Proof.Gen.Kernel.Points
import proofs.«121706_j87917980549125_2_alg».proof.Proof.Gen.Kernel.Frame
import proofs.«121706_j87917980549125_2_alg».proof.Proof.Gen.KernelIdeal
import proofs.«121706_j87917980549125_2_alg».proof.Proof.Gen.KernelIdeal.Skeleton
import proofs.«121706_j87917980549125_2_alg».proof.Proof.Gen.KernelIdeal.Launch
import proofs.«121706_j87917980549125_2_alg».proof.Proof.Gen.KernelIdeal.Points
import proofs.«121706_j87917980549125_2_alg».proof.Proof.Gen.KernelIdeal.Frame
import proofs.«121706_j87917980549125_2_alg».proof.Proof.Gen.ReferenceIdeal
import proofs.«121706_j87917980549125_2_alg».proof.Proof.Gen.Pre_finite_inputs
import proofs.«121706_j87917980549125_2_alg».proof.Proof.Gen.KernelIdeal.Value
import proofs.«121706_j87917980549125_2_alg».proof.Proof.Gen.ReferenceIdeal.Run
import proofs.«121706_j87917980549125_2_alg».proof.Proof.Gen.ReferenceIdeal.Read
import proofs.«121706_j87917980549125_2_alg».proof.Proof.JointSpec
import proofs.«121706_j87917980549125_2_alg».proof.Proof.RefJoint
import proofs.«121706_j87917980549125_2_alg».proof.Proof.BlocksJoint
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the kernel's result array ends at the joint head of its arguments (the blocks tile it) and the
    reference's at its composed term, which read at an index is the same two sums. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq_joint, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
